-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S2048x1024 : Shape := ⟨2, ![2048, 1024]⟩
abbrev S1024 : Shape := ⟨1, ![1024]⟩
abbrev S2048x4096 : Shape := ⟨2, ![2048, 4096]⟩
abbrev S4096 : Shape := ⟨1, ![4096]⟩
abbrev S1x4096 : Shape := ⟨2, ![1, 4096]⟩
abbrev S256x1024 : Shape := ⟨2, ![256, 1024]⟩
abbrev S1024x4096 : Shape := ⟨2, ![1024, 4096]⟩
abbrev S256x4096 : Shape := ⟨2, ![256, 4096]⟩

abbrev nBuf : Space → Nat
  | .hbm => 16
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S2048x4096, .f32⟩
  | .hbm, ⟨12, _⟩ => ⟨S2048x4096, .bf16⟩
  | .hbm, ⟨13, _⟩ => ⟨S4096, .f32⟩
  | .hbm, ⟨14, _⟩ => ⟨S1x4096, .f32⟩
  | .hbm, ⟨15, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S2048x4096_S1024x4096_0_0 : ∀ a, (![0, 0] : Fin 2 → Nat) a + S1024x4096.size a ≤ S2048x4096.size a
  h_S1024x4096 : 0 < S1024x4096.numel
  shapeCasts_S1024x4096_S1024x4096 : S1024x4096.ShapeCasts S1024x4096
  inb_S2048x4096_S1024x4096_1024_0 : ∀ a, (![1024, 0] : Fin 2 → Nat) a + S1024x4096.size a ≤ S2048x4096.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x2048, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x2048_S2048x1024_S4096x1024_1_0_0_1_n_n_wf : DotDims.WF S4096x2048 S2048x1024 S4096x1024 [1] [0] [0] [1] [] []

variable [Facts₀]

def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.BodyBits.lean ====
/-
  The frame of the cell kernel: every weakly fair execution of @main terminates without a fault and leaves the eleven
  argument arrays as it found them — together with what the run leaves in the result array, block by block.

  @main first joins the four weights side by side and the four biases end to end (four host operations that write only
  their own results), then runs ONE pipelined region over 16 grid points. At point `t` the region hands the body rows
  `256·t … 256·t + 255` of `x`, `h` and `c` (fetched at every point), the fused weight and the fused bias whole (fetched at
  the first point and kept), and a block of the result to fill. The body loads its five inputs through whole-buffer
  rectangles (the weight through its upper and its lower half), computes one value and stores it over the whole result
  block; the result block is written back at every point. So the inputs' staging buffers hold their blocks throughout,
  and the result's holds the body's value of them.
-/
import proofs.«148718_j56642028699866_2_alg».proof.Proof.Gen.Kernel.Launch
import proofs.«148718_j56642028699866_2_alg».proof.Proof.Gen.Kernel.Skeleton
import proofs.«148718_j56642028699866_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four joining operations. -/
abbrev V (c : Dev nD) (b : Ref sig .tc) : Buf (Elt F) ((c : Thread nD τ).loc b) :=
  StableHlo.after hostOps0 (fun b => m (c, b)) b

/-- None of the four operations allocates a buffer. -/
theorem hostOps0_fresh : (hostOps0 : List (HloOp τ sig (Elt F))).Forall fun op => op.fresh = ∅ := by
  simp only [List.Forall]; repeat' constructor

/-- @main is the four host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the four results (the fused weight in f32 and in bf16, the fused bias flat and as a row) is
    found by the region as launched. -/
theorem V_untouched (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched — the fused weight and bias after the first point — its block index has not moved), for any proof data over
    the region-entry arrays whose body leaves the block in place. One statement per input window: the windows are uncut,
    which is seen at a literal window only. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the result's buffer -/

/-- A whole block of batch rows. -/
abbrev rRows : Rect S256x1024 := Rect.unit (s := S256x1024) ![0, 0] S256x1024.size inb_S256x1024_S256x1024_0_0
/-- The fused weight's upper half: the rows that meet `x`. -/
abbrev rTop : Rect S2048x4096 := Rect.unit (s := S2048x4096) ![0, 0] S1024x4096.size inb_S2048x4096_S1024x4096_0_0
/-- The fused weight's lower half: the rows that meet `h`. -/
abbrev rBot : Rect S2048x4096 := Rect.unit (s := S2048x4096) ![1024, 0] S1024x4096.size inb_S2048x4096_S1024x4096_1024_0
/-- The fused bias row. -/
abbrev rBias : Rect S1x4096 := Rect.unit (s := S1x4096) ![0, 0] S1x4096.size inb_S1x4096_S1x4096_0_0

/-- The result's staging buffer after the body, from the five input buffers' contents: its one store, over the whole
    block, of the body's value of the loads. -/
def outBlock (xb hb cb : Vec F S256x1024 .f32) (wa : Vec F S2048x4096 .bf16) (ba : Vec F S1x4096 .f32) : Vec F S256x1024 .f32 :=
  View.canon [⟨rRows, k0_pay1 (View.ld xb rRows) (View.ld hb rRows) (View.ld wa rTop) (View.ld wa rBot) (View.ld ba rBias) (View.ld cb rRows)⟩]

/-- The one store covers the buffer. -/
theorem outCover (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging buffers, the inputs' at contents `xb hb cb wa ba` and the result's at anything, runs to the
    continuation with the inputs' as they were and the result's at `outBlock` of them. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S2048x4096 .bf16) (harg4 : arg4.IsWhole) (arg5 : Memref sig .tc .vmem S1x4096 .f32) (harg5 : arg5.IsWhole) (arg6 : Memref sig .tc .vmem S256x1024 .f32) (harg6 : arg6.IsWhole)
    (xb hb cb : Vec F S256x1024 .f32) (wa : Vec F S2048x4096 .bf16) (ba : Vec F S1x4096 .f32) (K : PUnit → sProp 𝕄) :
    iprop(owns (c : Thread nD τ) arg1 fullShare xb ∗ owns (c : Thread nD τ) arg2 fullShare hb ∗ owns (c : Thread nD τ) arg3 fullShare cb ∗ owns (c : Thread nD τ) arg4 fullShare wa ∗ owns (c : Thread nD τ) arg5 fullShare ba ∗ (∃ d, owns (c : Thread nD τ) arg6 fullShare d)
        ∗ (iprop(owns (c : Thread nD τ) arg1 fullShare xb ∗ owns (c : Thread nD τ) arg2 fullShare hb ∗ owns (c : Thread nD τ) arg3 fullShare cb ∗ owns (c : Thread nD τ) arg4 fullShare wa ∗ owns (c : Thread nD τ) arg5 fullShare ba ∗ owns (c : Thread nD τ) arg6 fullShare (outBlock xb hb cb wa ba)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

end Cert.Kernel.Hand

end
-- ==== Proof.RunBits.lean ====
/-
  The cell kernel's run: the proof data of its one pipelined region (each input's staging buffer at its block, the
  result's at the body's value of the input blocks), the body's obligation at every grid point, the run of @main to the
  state in which every array of the region holds what the proof data says and every other buffer what the region found,
  and from it the frame: the eleven argument arrays end as launched.
-/
import proofs.«148718_j56642028699866_2_alg».proof.Proof.BodyBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's proof data -/

/-- On core `c`: the arrays as the region finds them; after the body at point `t` each input's buffer at its block and the
    result's at the body's value of the five input blocks; the scoped rest and the generator register untouched; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlock (iblk m c 0 t) (iblk m c 1 t) (iblk m c 2 t) (iblk m c 3 t) (iblk m c 4 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has every array of the region at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## What the run leaves: the result array named, the arguments as launched -/

/-- The run with the result array named (the library's array of the write-backs of the proof data's blocks) and every
    argument array as launched: `x`, `h`, `c` are staged inputs, read and never written; the weights and biases are staged by
    no window and written by no host operation. -/
theorem run_named : θ_run defs (onTc (τ := τ) (main (F := F))) ⟨m, fun _ => 0, ρ⟩ (fun r => ∀ c : Dev nD,
      r.2.mem ((c.tc : Thread nD τ).loc main_v4) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1 5,
      ((h c).1 0).trans (((dats m 0 c).arrAt_in 0 rfl _).trans ((A_eq m c 0).trans (V_untouched m c main_arg0 (by decide) (by decide) (by decide) (by decide)))),
      ((h c).1 1).trans (((dats m 0 c).arrAt_in 1 rfl _).trans ((A_eq m c 1).trans (V_untouched m c main_arg1 (by decide) (by decide) (by decide) (by decide)))),
      ((h c).1 2).trans (((dats m 0 c).arrAt_in 2 rfl _).trans ((A_eq m c 2).trans (V_untouched m c main_arg2 (by decide) (by decide) (by decide) (by decide)))),
      ((h c).2 main_arg3 (Pipeline.mem_restRefs_of main_arg3 (by decide) (by decide))).trans (V_untouched m c main_arg3 (by decide) (by decide) (by decide) (by decide)),
      ((h c).2 main_arg4 (Pipeline.mem_restRefs_of main_arg4 (by decide) (by decide))).trans (V_untouched m c main_arg4 (by decide) (by decide) (by decide) (by decide)),
      ((h c).2 main_arg5 (Pipeline.mem_restRefs_of main_arg5 (by decide) (by decide))).trans (V_untouched m c main_arg5 (by decide) (by decide) (by decide) (by decide)),
      ((h c).2 main_arg6 (Pipeline.mem_restRefs_of main_arg6 (by decide) (by decide))).trans (V_untouched m c main_arg6 (by decide) (by decide) (by decide) (by decide)),
      ((h c).2 main_arg7 (Pipeline.mem_restRefs_of main_arg7 (by decide) (by decide))).trans (V_untouched m c main_arg7 (by decide) (by decide) (by decide) (by decide)),
      ((h c).2 main_arg8 (Pipeline.mem_restRefs_of main_arg8 (by decide) (by decide))).trans (V_untouched m c main_arg8 (by decide) (by decide) (by decide) (by decide)),
      ((h c).2 main_arg9 (Pipeline.mem_restRefs_of main_arg9 (by decide) (by decide))).trans (V_untouched m c main_arg9 (by decide) (by decide) (by decide) (by decide)),
      ((h c).2 main_arg10 (Pipeline.mem_restRefs_of main_arg10 (by decide) (by decide))).trans (V_untouched m c main_arg10 (by decide) (by decide) (by decide) (by decide))⟩) (run_main m ρ)

/-- THE FRAME: @main runs, faults nowhere, and its eleven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_named m ρ)

end Cert.Kernel.Hand

end
-- ==== Proof.Spec.lean ====
/-
  The long short-term memory cell, one time step, as ONE function of the eleven argument arrays, index by index,
  over the extended reals.

  For a batch row `r` and a hidden column `j`, each of the four gates has the pre-activation

      gate W b r j  =  Σ_{k < 1024} x[r,k] · W[k,j]  +  Σ_{k < 1024} h[r,k] · W[1024 + k, j]  +  b[j]

  — the product of the row `[x[r,·], h[r,·]]` of length 2048 with column `j` of the gate's weight, written as the
  sum of its two halves of length 1024 (the upper rows of `W` meet `x`, the lower rows meet `h`) — and the cell is

      tanh( c[r,j] · σ(gate W_f b_f) + σ(gate W_i b_i) · tanh(gate W_p b_p) ) · σ(gate W_s b_s),

  with `σ z = 1 / (1 + e^(−z))` the logistic function. Both programs are shown to compute this function.
-/
import Idealize.ShloMosaic.PureOps.Ideal
import Idealize.ShloMosaic.Lib.ValueIdx

noncomputable section

namespace Cert.Lstm

open Idealize.ShloMosaic Idealize.ShloMosaic.ValueIdx

/-- Batch × features (the inputs `x`, `h`, `c` and the result). -/
abbrev SBH : Shape := ⟨2, ![4096, 1024]⟩
/-- One gate's weight: 2048 input rows (1024 of `x` above 1024 of `h`) × 1024 hidden columns. -/
abbrev SW : Shape := ⟨2, ![2048, 1024]⟩
/-- One gate's bias. -/
abbrev SB : Shape := ⟨1, ![1024]⟩

/-- Row `k` of a weight's upper half: the rows that meet `x`. -/
def top (k : Fin 1024) : Fin 2048 := ⟨k.val, by omega⟩
/-- Row `k` of a weight's lower half: the rows that meet `h`. -/
def bot (k : Fin 1024) : Fin 2048 := ⟨k.val + 1024, by omega⟩

@[simp] theorem top_val (k : Fin 1024) : (top k).val = k.val := rfl
@[simp] theorem bot_val (k : Fin 1024) : (bot k).val = k.val + 1024 := rfl

/-- One gate's pre-activation at batch row `r` and hidden column `j`: the two half-length dot products and the bias. -/
def gate (x h : SBH.Idx → EReal) (W : SW.Idx → EReal) (b : SB.Idx → EReal) (r : Fin 4096) (j : Fin 1024) : EReal :=
  (∑ k : Fin 1024, x (ix2 r k) * W (ix2 (top k) j)) + (∑ k : Fin 1024, h (ix2 r k) * W (ix2 (bot k) j)) + b (ix1 j)

/-- The cell's output from the previous cell value `cv` at one position and the four pre-activations there
    (forget, input, select, predict). -/
def mix (cv f i s p : EReal) : EReal :=
  Ideal.tanh (cv * Ideal.logistic f + Ideal.logistic i * Ideal.tanh p) * Ideal.logistic s

/-- The new hidden state, index by index. -/
def cell (x h c : SBH.Idx → EReal) (Wf : SW.Idx → EReal) (bf : SB.Idx → EReal) (Wi : SW.Idx → EReal) (bi : SB.Idx → EReal)
    (Ws : SW.Idx → EReal) (bs : SB.Idx → EReal) (Wp : SW.Idx → EReal) (bp : SB.Idx → EReal) : SBH.Idx → EReal := fun i =>
  mix (c i) (gate x h Wf bf (i 0) (i 1)) (gate x h Wi bi (i 0) (i 1)) (gate x h Ws bs (i 0) (i 1)) (gate x h Wp bp (i 0) (i 1))

/-! ## The same cell as the kernel sees it: one block of 256 batch rows against the FUSED weight and bias

The kernel joins the four weights side by side into one matrix of 4096 columns (gate `g`'s column `j` is fused column
`g · 1024 + j`) and the four biases into one row of 4096, and works on 256 batch rows at a time. -/

/-- One block of batch rows. -/
abbrev SXB : Shape := ⟨2, ![256, 1024]⟩
/-- Half of the fused weight: the 1024 rows that meet `x`, or the 1024 rows that meet `h`; all 4096 fused columns. -/
abbrev SWH : Shape := ⟨2, ![1024, 4096]⟩
/-- The fused weight whole. -/
abbrev SWA : Shape := ⟨2, ![2048, 4096]⟩
/-- The fused bias, as a row. -/
abbrev SBR : Shape := ⟨2, ![1, 4096]⟩

/-- Gate `g`'s column `j` among the fused columns. -/
def col (g : Fin 4) (j : Fin 1024) : Fin 4096 := ⟨g.val * 1024 + j.val, by omega⟩

@[simp] theorem col_val (g : Fin 4) (j : Fin 1024) : (col g j).val = g.val * 1024 + j.val := rfl

/-- The fused pre-activation at row `p` of a block and fused column `q`: the block's `x` rows against the upper half of
    the fused weight, its `h` rows against the lower half, and the fused bias. -/
def lin (xb hb : SXB.Idx → EReal) (wt wb : SWH.Idx → EReal) (b : SBR.Idx → EReal) (p : Fin 256) (q : Fin 4096) : EReal :=
  (∑ k : Fin 1024, xb (ix2 p k) * wt (ix2 k q)) + (∑ k : Fin 1024, hb (ix2 p k) * wb (ix2 k q)) + b (ix2 (0 : Fin 1) q)

end Cert.Lstm

end
-- ==== Proof.RefCell.lean ====
/-
  The reference program computes the long short-term memory cell of the specification.

  The reference joins `x` and `h` side by side into rows of length 2048, multiplies the joined array by each gate's
  weight (2048 × 1024), adds the gate's bias along the rows, applies the logistic function to three of the four
  results and the hyperbolic tangent to the fourth, and combines them with the previous cell value:

      tanh( c · σ(forget) + σ(input) · tanh(predict) ) · σ(select).

  Read index by index: a column `k < 1024` of the joined row is `x`'s column `k`, a column `1024 + k` is `h`'s
  column `k`; so the sum over the 2048 joined columns is the sum of the two half-length dot products of the
  specification's `gate`, the upper rows of the weight meeting `x` and the lower rows meeting `h`. The quotient
  `1 / (1 + e^(−z))` is the logistic function by definition. Only the rearrangement of a finite sum in a
  commutative monoid is used, so nothing is asked of the inputs.
-/
import proofs.«148718_j56642028699866_2_alg».proof.Proof.Gen.ReferenceIdeal.Read
import proofs.«148718_j56642028699866_2_alg».proof.Proof.Spec
import Idealize.ShloMosaic.Lib.IdealHost

noncomputable section

namespace Cert.Lstm.RefSide

open Cert.ReferenceIdeal Cert.ReferenceIdeal.Gen Cert.ReferenceIdeal.Read Idealize.ShloMosaic Idealize.ShloMosaic.ValueIdx
open scoped BigOperators

/-! ## The joined row `[x[r,·], h[r,·]]` read at a column

The first 1024 columns of the concatenation along axis 1 are `x`'s, the last 1024 are `h`'s. -/

/-- A column of the first half of the joined row is `x`'s entry at that column. -/
theorem joined_top (x0 x1 : (⟨S4096x1024, .f32⟩ : BufTy).Contents (Elt Ideal)) (r : Fin 4096) (k : Fin 1024) :
    val_main_v0 (F := Ideal) x0 x1 (ix2 r (top k)) = x0 (ix2 r k) := by
  unfold val_main_v0
  exact concatenate_pair_apply_left (t := S4096x2048) (s₁ := S4096x1024) (s₂ := S4096x1024) 1 x0 x1
    concatenates_S4096x1024_S4096x1024_S4096x2048_d1 (ix2 r (top k)) rfl (ix2 r k) (fun b => by
    match b with
    | ⟨0, _⟩ => rfl
    | ⟨1, _⟩ => rfl)

/-- A column of the second half of the joined row is `h`'s entry 1024 columns earlier. -/
theorem joined_bot (x0 x1 : (⟨S4096x1024, .f32⟩ : BufTy).Contents (Elt Ideal)) (r : Fin 4096) (k : Fin 1024) :
    val_main_v0 (F := Ideal) x0 x1 (ix2 r (bot k)) = x1 (ix2 r k) := by
  unfold val_main_v0
  exact concatenate_pair_apply_right (t := S4096x2048) (s₁ := S4096x1024) (s₂ := S4096x1024) 1 x0 x1
    concatenates_S4096x1024_S4096x1024_S4096x2048_d1 (ix2 r (bot k)) rfl rfl (ix2 r k)
    (fun b hb => by
      match b with
      | ⟨0, _⟩ => rfl
      | ⟨1, _⟩ => exact absurd rfl hb)
    (show k.val + 1024 = k.val + 1024 from rfl)

/-- A sum over the 2048 rows of a weight is the sum over its upper 1024 rows plus the sum over its lower 1024 rows. -/
theorem sum_halves (f : Fin 2048 → EReal) :
    ∑ k : Fin 2048, f k = (∑ k : Fin 1024, f (top k)) + ∑ k : Fin 1024, f (bot k) := by
  rw [show (∑ k : Fin 2048, f k) = ∑ k : Fin (1024 + 1024), f k from rfl, Fin.sum_univ_add]
  refine congrArg₂ (· + ·) ?_ ?_
  · exact Finset.sum_congr rfl fun k _ => congrArg f (Fin.ext rfl)
  · exact Finset.sum_congr rfl fun k _ => congrArg f (Fin.ext (Nat.add_comm _ _))

/-! ## One gate's pre-activation

The row `[x[r,·], h[r,·]]` times column `j` of a weight, plus the bias at `j`, is the sum of the two half-length
dot products and the bias. The four gates' products have the same shape, so this is stated once over an arbitrary
weight and bias. -/

/-- The product of the joined row with a weight's column, split at row 1024 of the weight. -/
theorem gate_core (x0 x1 : (⟨S4096x1024, .f32⟩ : BufTy).Contents (Elt Ideal)) (W : (⟨S2048x1024, .f32⟩ : BufTy).Contents (Elt Ideal))
    (b : (⟨S1024, .f32⟩ : BufTy).Contents (Elt Ideal)) (r : Fin 4096) (j : Fin 1024) :
    (∑ k : Fin 2048, val_main_v0 (F := Ideal) x0 x1 (ix2 r k) * W (ix2 k j)) + b (ix1 j) = gate x0 x1 W b r j := by
  unfold gate
  rw [sum_halves]
  simp only [joined_top, joined_bot]

/-- The left operand's index of the contraction: row `i 0` of the joined array, column `k`. -/
theorem lidx_eq (i : S4096x1024.Idx) (k : Fin 2048) : lidx_main_v1 i k = ix2 (i 0) k :=
  funext fun a => by
    match a with
    | ⟨0, _⟩ => rfl
    | ⟨1, _⟩ => rfl

/-- The right operand's index of the contraction: row `k` of the weight, column `i 1`. -/
theorem ridx_eq (i : S4096x1024.Idx) (k : Fin 2048) : ridx_main_v1 i k = ix2 k (i 1) :=
  funext fun a => by
    match a with
    | ⟨0, _⟩ => rfl
    | ⟨1, _⟩ => rfl

/-- The bias, broadcast to one row and then down the 4096 rows, is read at the column. -/
theorem bias_idx_eq (i : S4096x1024.Idx) : idx_main_v2 (idx_main_v3 i) = ix1 (i 1) :=
  funext fun a => by
    match a with
    | ⟨0, _⟩ => rfl

/-- A gate's pre-activation as the reference computes it — the contraction over the 2048 joined columns, plus the
    broadcast bias — is `gate`. -/
theorem gate_eq (x0 x1 : (⟨S4096x1024, .f32⟩ : BufTy).Contents (Elt Ideal)) (W : (⟨S2048x1024, .f32⟩ : BufTy).Contents (Elt Ideal))
    (b : (⟨S1024, .f32⟩ : BufTy).Contents (Elt Ideal)) (i : S4096x1024.Idx) :
    (∑ k : Fin 2048, val_main_v0 (F := Ideal) x0 x1 (lidx_main_v1 i k) * W (ridx_main_v1 i k))
        + b (idx_main_v2 (idx_main_v3 i)) = gate x0 x1 W b (i 0) (i 1) := by
  simp only [lidx_eq, ridx_eq, bias_idx_eq]
  exact gate_core x0 x1 W b (i 0) (i 1)

/-- The logistic function as the reference spells it, `1 / (1 + e^(−z))` with the constant `1.0` given by its bit pattern. -/
theorem logistic_eq (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, Ideal.ofBits_one_f32]
  rfl

/-! ## The stages of the reference, gate by gate -/

/-- The forget gate's pre-activation. -/
theorem pre_forget (x0 x1 : (⟨S4096x1024, .f32⟩ : BufTy).Contents (Elt Ideal)) (x3 : (⟨S2048x1024, .f32⟩ : BufTy).Contents (Elt Ideal))
    (x4 : (⟨S1024, .f32⟩ : BufTy).Contents (Elt Ideal)) (i : S4096x1024.Idx) :
    val_main_v4 (F := Ideal) x0 x1 x3 x4 i = gate x0 x1 x3 x4 (i 0) (i 1) := by
  rw [val_main_v4_apply, val_main_v1_apply, val_main_v3_apply, val_main_v2_apply]
  exact gate_eq x0 x1 x3 x4 i

/-- The forget gate: the logistic function of its pre-activation. -/
theorem sig_forget (x0 x1 : (⟨S4096x1024, .f32⟩ : BufTy).Contents (Elt Ideal)) (x3 : (⟨S2048x1024, .f32⟩ : BufTy).Contents (Elt Ideal))
    (x4 : (⟨S1024, .f32⟩ : BufTy).Contents (Elt Ideal)) (i : S4096x1024.Idx) :
    val_main_v10 (F := Ideal) x0 x1 x3 x4 i = Ideal.logistic (gate x0 x1 x3 x4 (i 0) (i 1)) := by
  rw [val_main_v10_apply, val_main_v9_apply, val_main_cst_0_apply, val_main_v8_apply, val_main_v7_apply,
    val_main_cst_apply, val_main_v6_apply, val_main_v5_apply, pre_forget]
  exact logistic_eq _

/-- The input gate's pre-activation. -/
theorem pre_input (x0 x1 : (⟨S4096x1024, .f32⟩ : BufTy).Contents (Elt Ideal)) (x5 : (⟨S2048x1024, .f32⟩ : BufTy).Contents (Elt Ideal))
    (x6 : (⟨S1024, .f32⟩ : BufTy).Contents (Elt Ideal)) (i : S4096x1024.Idx) :
    val_main_v14 (F := Ideal) x0 x1 x5 x6 i = gate x0 x1 x5 x6 (i 0) (i 1) := by
  rw [val_main_v14_apply, val_main_v11_apply, val_main_v13_apply, val_main_v12_apply]
  exact gate_eq x0 x1 x5 x6 i

/-- The input gate: the logistic function of its pre-activation. -/
theorem sig_input (x0 x1 : (⟨S4096x1024, .f32⟩ : BufTy).Contents (Elt Ideal)) (x5 : (⟨S2048x1024, .f32⟩ : BufTy).Contents (Elt Ideal))
    (x6 : (⟨S1024, .f32⟩ : BufTy).Contents (Elt Ideal)) (i : S4096x1024.Idx) :
    val_main_v20 (F := Ideal) x0 x1 x5 x6 i = Ideal.logistic (gate x0 x1 x5 x6 (i 0) (i 1)) := by
  rw [val_main_v20_apply, val_main_v19_apply, val_main_cst_2_apply, val_main_v18_apply, val_main_v17_apply,
    val_main_cst_1_apply, val_main_v16_apply, val_main_v15_apply, pre_input]
  exact logistic_eq _

/-- The select gate's pre-activation. -/
theorem pre_select (x0 x1 : (⟨S4096x1024, .f32⟩ : BufTy).Contents (Elt Ideal)) (x7 : (⟨S2048x1024, .f32⟩ : BufTy).Contents (Elt Ideal))
    (x8 : (⟨S1024, .f32⟩ : BufTy).Contents (Elt Ideal)) (i : S4096x1024.Idx) :
    val_main_v24 (F := Ideal) x0 x1 x7 x8 i = gate x0 x1 x7 x8 (i 0) (i 1) := by
  rw [val_main_v24_apply, val_main_v21_apply, val_main_v23_apply, val_main_v22_apply]
  exact gate_eq x0 x1 x7 x8 i

/-- The select gate: the logistic function of its pre-activation. -/
theorem sig_select (x0 x1 : (⟨S4096x1024, .f32⟩ : BufTy).Contents (Elt Ideal)) (x7 : (⟨S2048x1024, .f32⟩ : BufTy).Contents (Elt Ideal))
    (x8 : (⟨S1024, .f32⟩ : BufTy).Contents (Elt Ideal)) (i : S4096x1024.Idx) :
    val_main_v30 (F := Ideal) x0 x1 x7 x8 i = Ideal.logistic (gate x0 x1 x7 x8 (i 0) (i 1)) := by
  rw [val_main_v30_apply, val_main_v29_apply, val_main_cst_4_apply, val_main_v28_apply, val_main_v27_apply,
    val_main_cst_3_apply, val_main_v26_apply, val_main_v25_apply, pre_select]
  exact logistic_eq _

/-- The predict gate's pre-activation. -/
theorem pre_predict (x0 x1 : (⟨S4096x1024, .f32⟩ : BufTy).Contents (Elt Ideal)) (x9 : (⟨S2048x1024, .f32⟩ : BufTy).Contents (Elt Ideal))
    (x10 : (⟨S1024, .f32⟩ : BufTy).Contents (Elt Ideal)) (i : S4096x1024.Idx) :
    val_main_v34 (F := Ideal) x0 x1 x9 x10 i = gate x0 x1 x9 x10 (i 0) (i 1) := by
  rw [val_main_v34_apply, val_main_v31_apply, val_main_v33_apply, val_main_v32_apply]
  exact gate_eq x0 x1 x9 x10 i

/-! ## The reference computes the cell -/

/-- The reference's result is the cell, index by index: `tanh(c · σ(forget) + σ(input) · tanh(predict)) · σ(select)`. -/
theorem reference_eq_cell (x0 x1 x2 : (⟨S4096x1024, .f32⟩ : BufTy).Contents (Elt Ideal)) (x3 : (⟨S2048x1024, .f32⟩ : BufTy).Contents (Elt Ideal))
    (x4 : (⟨S1024, .f32⟩ : BufTy).Contents (Elt Ideal)) (x5 : (⟨S2048x1024, .f32⟩ : BufTy).Contents (Elt Ideal))
    (x6 : (⟨S1024, .f32⟩ : BufTy).Contents (Elt Ideal)) (x7 : (⟨S2048x1024, .f32⟩ : BufTy).Contents (Elt Ideal))
    (x8 : (⟨S1024, .f32⟩ : BufTy).Contents (Elt Ideal)) (x9 : (⟨S2048x1024, .f32⟩ : BufTy).Contents (Elt Ideal))
    (x10 : (⟨S1024, .f32⟩ : BufTy).Contents (Elt Ideal)) :
    Cert.ReferenceIdeal.Read.val_main_v40 (F := Ideal) x0 x1 x2 x3 x4 x5 x6 x7 x8 x9 x10
      = Cert.Lstm.cell x0 x1 x2 x3 x4 x5 x6 x7 x8 x9 x10 := by
  funext i
  rw [val_main_v40_apply, val_main_v39_apply, val_main_v38_apply, val_main_v36_apply, val_main_v37_apply,
    val_main_v35_apply, sig_forget, sig_input, sig_select, pre_predict]
  rfl

end Cert.Lstm.RefSide

end
-- ==== Proof.BodyIdeal.lean ====
/-
  The frame of the cell kernel: every weakly fair execution of @main terminates without a fault and leaves the eleven
  argument arrays as it found them — together with what the run leaves in the result array, block by block.

  @main first joins the four weights side by side and the four biases end to end (four host operations that write only
  their own results), then runs ONE pipelined region over 16 grid points. At point `t` the region hands the body rows
  `256·t … 256·t + 255` of `x`, `h` and `c` (fetched at every point), the fused weight and the fused bias whole (fetched at
  the first point and kept), and a block of the result to fill. The body loads its five inputs through whole-buffer
  rectangles (the weight through its upper and its lower half), computes one value and stores it over the whole result
  block; the result block is written back at every point. So the inputs' staging buffers hold their blocks throughout,
  and the result's holds the body's value of them.
-/
import proofs.«148718_j56642028699866_2_alg».proof.Proof.Gen.KernelIdeal.Launch
import proofs.«148718_j56642028699866_2_alg».proof.Proof.Gen.KernelIdeal.Skeleton
import proofs.«148718_j56642028699866_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four joining operations. -/
abbrev V (c : Dev nD) (b : Ref sig .tc) : Buf (Elt F) ((c : Thread nD τ).loc b) :=
  StableHlo.after hostOps0 (fun b => m (c, b)) b

/-- None of the four operations allocates a buffer. -/
theorem hostOps0_fresh : (hostOps0 : List (HloOp τ sig (Elt F))).Forall fun op => op.fresh = ∅ := by
  simp only [List.Forall]; repeat' constructor

/-- @main is the four host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the four results (the fused weight in f32 and in bf16, the fused bias flat and as a row) is
    found by the region as launched. -/
theorem V_untouched (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (where it is not
    fetched — the fused weight and bias after the first point — its block index has not moved), for any proof data over
    the region-entry arrays whose body leaves the block in place. One statement per input window: the windows are uncut,
    which is seen at a literal window only. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the result's buffer -/

/-- A whole block of batch rows. -/
abbrev rRows : Rect S256x1024 := Rect.unit (s := S256x1024) ![0, 0] S256x1024.size inb_S256x1024_S256x1024_0_0
/-- The fused weight's upper half: the rows that meet `x`. -/
abbrev rTop : Rect S2048x4096 := Rect.unit (s := S2048x4096) ![0, 0] S1024x4096.size inb_S2048x4096_S1024x4096_0_0
/-- The fused weight's lower half: the rows that meet `h`. -/
abbrev rBot : Rect S2048x4096 := Rect.unit (s := S2048x4096) ![1024, 0] S1024x4096.size inb_S2048x4096_S1024x4096_1024_0
/-- The fused bias row. -/
abbrev rBias : Rect S1x4096 := Rect.unit (s := S1x4096) ![0, 0] S1x4096.size inb_S1x4096_S1x4096_0_0

/-- The result's staging buffer after the body, from the five input buffers' contents: its one store, over the whole
    block, of the body's value of the loads. -/
def outBlock (xb hb cb : Vec F S256x1024 .f32) (wa : Vec F S2048x4096 .bf16) (ba : Vec F S1x4096 .f32) : Vec F S256x1024 .f32 :=
  View.canon [⟨rRows, k0_pay1 (View.ld xb rRows) (View.ld hb rRows) (View.ld wa rTop) (View.ld wa rBot) (View.ld ba rBias) (View.ld cb rRows)⟩]

/-- The one store covers the buffer. -/
theorem outCover (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging buffers, the inputs' at contents `xb hb cb wa ba` and the result's at anything, runs to the
    continuation with the inputs' as they were and the result's at `outBlock` of them. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S2048x4096 .bf16) (harg4 : arg4.IsWhole) (arg5 : Memref sig .tc .vmem S1x4096 .f32) (harg5 : arg5.IsWhole) (arg6 : Memref sig .tc .vmem S256x1024 .f32) (harg6 : arg6.IsWhole)
    (xb hb cb : Vec F S256x1024 .f32) (wa : Vec F S2048x4096 .bf16) (ba : Vec F S1x4096 .f32) (K : PUnit → sProp 𝕄) :
    iprop(owns (c : Thread nD τ) arg1 fullShare xb ∗ owns (c : Thread nD τ) arg2 fullShare hb ∗ owns (c : Thread nD τ) arg3 fullShare cb ∗ owns (c : Thread nD τ) arg4 fullShare wa ∗ owns (c : Thread nD τ) arg5 fullShare ba ∗ (∃ d, owns (c : Thread nD τ) arg6 fullShare d)
        ∗ (iprop(owns (c : Thread nD τ) arg1 fullShare xb ∗ owns (c : Thread nD τ) arg2 fullShare hb ∗ owns (c : Thread nD τ) arg3 fullShare cb ∗ owns (c : Thread nD τ) arg4 fullShare wa ∗ owns (c : Thread nD τ) arg5 fullShare ba ∗ owns (c : Thread nD τ) arg6 fullShare (outBlock xb hb cb wa ba)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

end Cert.KernelIdeal.Hand

end
-- ==== Proof.RunIdeal.lean ====
/-
  The cell kernel's run: the proof data of its one pipelined region (each input's staging buffer at its block, the
  result's at the body's value of the input blocks), the body's obligation at every grid point, the run of @main to the
  state in which every array of the region holds what the proof data says and every other buffer what the region found,
  and from it the frame: the eleven argument arrays end as launched.
-/
import proofs.«148718_j56642028699866_2_alg».proof.Proof.BodyIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's proof data -/

/-- On core `c`: the arrays as the region finds them; after the body at point `t` each input's buffer at its block and the
    result's at the body's value of the five input blocks; the scoped rest and the generator register untouched; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlock (iblk m c 0 t) (iblk m c 1 t) (iblk m c 2 t) (iblk m c 3 t) (iblk m c 4 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has every array of the region at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## What the run leaves: the result array named, the arguments as launched -/

/-- The run with the result array named (the library's array of the write-backs of the proof data's blocks) and every
    argument array as launched: `x`, `h`, `c` are staged inputs, read and never written; the weights and biases are staged by
    no window and written by no host operation. -/
theorem run_named : θ_run defs (onTc (τ := τ) (main (F := F))) ⟨m, fun _ => 0, ρ⟩ (fun r => ∀ c : Dev nD,
      r.2.mem ((c.tc : Thread nD τ).loc main_v4) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1 5,
      ((h c).1 0).trans (((dats m 0 c).arrAt_in 0 rfl _).trans ((A_eq m c 0).trans (V_untouched m c main_arg0 (by decide) (by decide) (by decide) (by decide)))),
      ((h c).1 1).trans (((dats m 0 c).arrAt_in 1 rfl _).trans ((A_eq m c 1).trans (V_untouched m c main_arg1 (by decide) (by decide) (by decide) (by decide)))),
      ((h c).1 2).trans (((dats m 0 c).arrAt_in 2 rfl _).trans ((A_eq m c 2).trans (V_untouched m c main_arg2 (by decide) (by decide) (by decide) (by decide)))),
      ((h c).2 main_arg3 (Pipeline.mem_restRefs_of main_arg3 (by decide) (by decide))).trans (V_untouched m c main_arg3 (by decide) (by decide) (by decide) (by decide)),
      ((h c).2 main_arg4 (Pipeline.mem_restRefs_of main_arg4 (by decide) (by decide))).trans (V_untouched m c main_arg4 (by decide) (by decide) (by decide) (by decide)),
      ((h c).2 main_arg5 (Pipeline.mem_restRefs_of main_arg5 (by decide) (by decide))).trans (V_untouched m c main_arg5 (by decide) (by decide) (by decide) (by decide)),
      ((h c).2 main_arg6 (Pipeline.mem_restRefs_of main_arg6 (by decide) (by decide))).trans (V_untouched m c main_arg6 (by decide) (by decide) (by decide) (by decide)),
      ((h c).2 main_arg7 (Pipeline.mem_restRefs_of main_arg7 (by decide) (by decide))).trans (V_untouched m c main_arg7 (by decide) (by decide) (by decide) (by decide)),
      ((h c).2 main_arg8 (Pipeline.mem_restRefs_of main_arg8 (by decide) (by decide))).trans (V_untouched m c main_arg8 (by decide) (by decide) (by decide) (by decide)),
      ((h c).2 main_arg9 (Pipeline.mem_restRefs_of main_arg9 (by decide) (by decide))).trans (V_untouched m c main_arg9 (by decide) (by decide) (by decide) (by decide)),
      ((h c).2 main_arg10 (Pipeline.mem_restRefs_of main_arg10 (by decide) (by decide))).trans (V_untouched m c main_arg10 (by decide) (by decide) (by decide) (by decide))⟩) (run_main m ρ)

/-- THE FRAME: @main runs, faults nowhere, and its eleven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_named m ρ)

end Cert.KernelIdeal.Hand

end
-- ==== Proof.BlockReads.lean ====
/-
  Where each block sits in its array. At grid point `t` the windows over `x`, `h`, `c` and the result are on block row `t`
  (batch rows `256·t … 256·t + 255`, all 1024 columns); the windows over the fused weight and the fused bias are on their
  one block, the whole array, at every point. So an entry of a loaded block is an entry of the array the region found:
  row `p` of a batch block is batch row `256·t + p`; row `k` of the upper half of the fused weight is its row `k`, row `k`
  of the lower half its row `1024 + k`.
-/
import proofs.«148718_j56642028699866_2_alg».proof.Proof.RunIdeal
import proofs.«148718_j56642028699866_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Lstm

variable {F : FTy → Type} [FloatOps F]
variable (m : (ℓ : Loc nD τ sig) → Buf (Elt F) ℓ)

/-- The printed index maps over the 16 grid points: the four batch windows are on block row `t`, block column 0; the
    fused weight and bias on block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 16 :=
  Nat.lt_of_lt_of_eq t.isLt (show cfg0.N = 16 from N_0)

/-- Row `p` of block row `t` is batch row `256·t + p`. -/
def rowAt (t : Fin cfg0.N) (p : Fin 256) : Fin 4096 := ⟨t.val * 256 + p.val, by have := point_lt t; have := p.isLt; omega⟩

@[simp] theorem rowAt_val (t : Fin cfg0.N) (p : Fin 256) : (rowAt t p).val = t.val * 256 + p.val := rfl

/-- The loaded `x` block, at an entry. -/
theorem ld_x (c : Dev nD) (t : Fin cfg0.N) (p : Fin 256) (k : Fin 1024) :
    View.ld (iblk m c 0 t) rRows (ix2 p k) = V m c main_arg0 (ix2 (rowAt t p) k) := by
  obtain ⟨e0, e1, -⟩ := idx_facts t
  show V m c main_arg0 (((cfg0.win 0).blk t).view.emb (rRows.emb (ix2 p k))) = V m c main_arg0 (ix2 (rowAt t p) k)
  refine congrArg _ (funext fun a => Fin.ext ?_)
  match a with
  | ⟨0, _⟩ => show win0_0.index t (0 : Fin 2) * 256 + 1 * (0 + 1 * p.val) = t.val * 256 + p.val; omega
  | ⟨1, _⟩ => show win0_0.index t (1 : Fin 2) * 1024 + 1 * (0 + 1 * k.val) = k.val; omega

/-- The loaded `h` block, at an entry. -/
theorem ld_h (c : Dev nD) (t : Fin cfg0.N) (p : Fin 256) (k : Fin 1024) :
    View.ld (iblk m c 1 t) rRows (ix2 p k) = V m c main_arg1 (ix2 (rowAt t p) k) := by
  obtain ⟨-, -, e0, e1, -⟩ := idx_facts t
  show V m c main_arg1 (((cfg0.win 1).blk t).view.emb (rRows.emb (ix2 p k))) = V m c main_arg1 (ix2 (rowAt t p) k)
  refine congrArg _ (funext fun a => Fin.ext ?_)
  match a with
  | ⟨0, _⟩ => show win0_1.index t (0 : Fin 2) * 256 + 1 * (0 + 1 * p.val) = t.val * 256 + p.val; omega
  | ⟨1, _⟩ => show win0_1.index t (1 : Fin 2) * 1024 + 1 * (0 + 1 * k.val) = k.val; omega

/-- The loaded `c` block, at an entry. -/
theorem ld_c (c : Dev nD) (t : Fin cfg0.N) (p : Fin 256) (j : Fin 1024) :
    View.ld (iblk m c 2 t) rRows (ix2 p j) = V m c main_arg2 (ix2 (rowAt t p) j) := by
  obtain ⟨-, -, -, -, e0, e1, -⟩ := idx_facts t
  show V m c main_arg2 (((cfg0.win 2).blk t).view.emb (rRows.emb (ix2 p j))) = V m c main_arg2 (ix2 (rowAt t p) j)
  refine congrArg _ (funext fun a => Fin.ext ?_)
  match a with
  | ⟨0, _⟩ => show win0_2.index t (0 : Fin 2) * 256 + 1 * (0 + 1 * p.val) = t.val * 256 + p.val; omega
  | ⟨1, _⟩ => show win0_2.index t (1 : Fin 2) * 1024 + 1 * (0 + 1 * j.val) = j.val; omega

/-- The loaded upper half of the fused weight, at an entry. -/
theorem ld_wtop (c : Dev nD) (t : Fin cfg0.N) (k : Fin 1024) (q : Fin 4096) :
    View.ld (iblk m c 3 t) rTop (ix2 k q) = V m c main_v1 (ix2 (top k) q) := by
  obtain ⟨-, -, -, -, -, -, e0, e1, -⟩ := idx_facts t
  show V m c main_v1 (((cfg0.win 3).blk t).view.emb (rTop.emb (ix2 k q))) = V m c main_v1 (ix2 (top k) q)
  refine congrArg _ (funext fun a => Fin.ext ?_)
  match a with
  | ⟨0, _⟩ => show win0_3.index t (0 : Fin 2) * 2048 + 1 * (0 + 1 * k.val) = k.val; omega
  | ⟨1, _⟩ => show win0_3.index t (1 : Fin 2) * 4096 + 1 * (0 + 1 * q.val) = q.val; omega

/-- The loaded lower half of the fused weight, at an entry. -/
theorem ld_wbot (c : Dev nD) (t : Fin cfg0.N) (k : Fin 1024) (q : Fin 4096) :
    View.ld (iblk m c 3 t) rBot (ix2 k q) = V m c main_v1 (ix2 (bot k) q) := by
  obtain ⟨-, -, -, -, -, -, e0, e1, -⟩ := idx_facts t
  show V m c main_v1 (((cfg0.win 3).blk t).view.emb (rBot.emb (ix2 k q))) = V m c main_v1 (ix2 (bot k) q)
  refine congrArg _ (funext fun a => Fin.ext ?_)
  match a with
  | ⟨0, _⟩ => show win0_3.index t (0 : Fin 2) * 2048 + 1 * (1024 + 1 * k.val) = k.val + 1024; omega
  | ⟨1, _⟩ => show win0_3.index t (1 : Fin 2) * 4096 + 1 * (0 + 1 * q.val) = q.val; omega

/-- The loaded fused bias row, at an entry. -/
theorem ld_bias (c : Dev nD) (t : Fin cfg0.N) (q : Fin 4096) :
    View.ld (iblk m c 4 t) rBias (ix2 (0 : Fin 1) q) = V m c main_v3 (ix2 (0 : Fin 1) q) := by
  obtain ⟨-, -, -, -, -, -, -, -, e0, e1, -⟩ := idx_facts t
  show V m c main_v3 (((cfg0.win 4).blk t).view.emb (rBias.emb (ix2 (0 : Fin 1) q))) = V m c main_v3 (ix2 (0 : Fin 1) q)
  refine congrArg _ (funext fun a => Fin.ext ?_)
  match a with
  | ⟨0, _⟩ => show win0_4.index t (0 : Fin 2) * 1 + 1 * (0 + 1 * 0) = 0; omega
  | ⟨1, _⟩ => show win0_4.index t (1 : Fin 2) * 4096 + 1 * (0 + 1 * q.val) = q.val; omega

/-- Entry `(p, j)` of the result's block at point `t` is entry `(256·t + p, j)` of the result array. -/
theorem emb_out (t : Fin cfg0.N) (p : Fin 256) (j : Fin 1024) :
    ((cfg0.win 5).blk t).view.emb (ix2 p j) = ix2 (rowAt t p) j := by
  obtain ⟨-, -, -, -, -, -, -, -, -, -, e0, e1⟩ := idx_facts t
  refine funext fun a => Fin.ext ?_
  match a with
  | ⟨0, _⟩ => show win0_5.index t (0 : Fin 2) * 256 + 1 * p.val = t.val * 256 + p.val; omega
  | ⟨1, _⟩ => show win0_5.index t (1 : Fin 2) * 1024 + 1 * j.val = j.val; omega

/-- An index of the result array is in point `t`'s block iff each coordinate is in the block's range on its axis. -/
theorem mem_blk_out (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v4).slice (win0_5.rect t)).set ↔ _
  rw [View.set_slice_whole, Rect.mem_set_unit]
  exact Iff.rfl

/-- Every index of the result array is in the block of the point its batch row falls in. -/
theorem cover_out (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 16 := N_0
  let t : Fin cfg0.N := ⟨(i 0).val / 256, by rw [hN]; omega⟩
  obtain ⟨-, -, -, -, -, -, -, -, -, -, e0, e1⟩ := idx_facts t
  have ht : t.val = (i 0).val / 256 := rfl
  refine ⟨t, flush0_5 t, ?_⟩
  rw [mem_blk_out]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

end Cert.KernelIdeal.Hand

end
-- ==== Proof.HostArrays.lean ====
/-
  What the region finds in the two arrays @main builds for it: the FUSED WEIGHT — the four gates' weights joined side by
  side, 2048 rows by 4 · 1024 columns, narrowed to the kernel's matrix format — and the FUSED BIAS — the four biases joined
  end to end and laid out as one row of 4 · 1024. The four host operations fall in two independent pairs: the first pair
  reads only the four weights, the second only the four biases, and neither writes an argument array.
-/
import proofs.«148718_j56642028699866_2_alg».proof.Proof.BodyIdeal
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ)

/-- The pair of operations that builds the fused weight. -/
abbrev opsW : List (HloOp τ sig (Elt F)) :=
  [ StableHlo.nary ![main_arg3, main_arg5, main_arg7, main_arg9] main_v0 (fun u => concatenate S2048x4096 1 [⟨S2048x1024, u 0⟩, ⟨S2048x1024, u 1⟩, ⟨S2048x1024, u 2⟩, ⟨S2048x1024, u 3⟩] concatenates_S2048x1024_S2048x1024_S2048x1024_S2048x1024_S2048x4096_d1),
    StableHlo.unary main_v0 main_v1 ((truncf .bf16 · bitsLt_bf16_f32) : (⟨S2048x4096, .f32⟩ : BufTy).Contents (Elt F) → (⟨S2048x4096, .bf16⟩ : BufTy).Contents (Elt F)) ]

/-- The pair of operations that builds the fused bias. -/
abbrev opsB : List (HloOp τ sig (Elt F)) :=
  [ StableHlo.nary ![main_arg4, main_arg6, main_arg8, main_arg10] main_v2 (fun u => concatenate S4096 0 [⟨S1024, u 0⟩, ⟨S1024, u 1⟩, ⟨S1024, u 2⟩, ⟨S1024, u 3⟩] concatenates_S1024_S1024_S1024_S1024_S4096_d0),
    StableHlo.reshape main_v2 main_v3 rfl shapeCasts_S4096_S1x4096 ]

/-- The region-entry contents are the launch contents after the weight pair, then the bias pair. -/
theorem V_split (c : Dev nD) (b : Ref sig .tc) :
    V m c b = StableHlo.after opsB (StableHlo.after opsW (fun b => m (c, b))) (Proc.devRef .tc b) := rfl

/-- The weight pair leaves every buffer but its own two results as it was. -/
theorem opsW_untouched (M : Valuation τ sig (Elt F)) (b : Ref sig .tc) (h0 : b ≠ main_v0) (h1 : b ≠ main_v1) :
    StableHlo.after opsW M (Proc.devRef .tc b) = M (Proc.devRef .tc b) :=
  StableHlo.after_of_forall_not_mem (b := Proc.devRef .tc b) _ _ (List.forall_iff_forall_mem.mp (by
    simp only [opsW, List.Forall, StableHlo.nary_writes, StableHlo.unary_writes, Finset.mem_singleton]
    exact ⟨StableHlo.devRef_ne_of_ne h0, StableHlo.devRef_ne_of_ne h1⟩))

/-- The bias pair leaves every buffer but its own two results as it was. -/
theorem opsB_untouched (M : Valuation τ sig (Elt F)) (b : Ref sig .tc) (h2 : b ≠ main_v2) (h3 : b ≠ main_v3) :
    StableHlo.after opsB M (Proc.devRef .tc b) = M (Proc.devRef .tc b) :=
  StableHlo.after_of_forall_not_mem (b := Proc.devRef .tc b) _ _ (List.forall_iff_forall_mem.mp (by
    simp only [opsB, List.Forall, StableHlo.nary_writes, StableHlo.reshape_writes, Finset.mem_singleton]
    exact ⟨StableHlo.devRef_ne_of_ne h2, StableHlo.devRef_ne_of_ne h3⟩))

/-- The weight pair's second result, from any contents: the four weights joined along the columns, narrowed. -/
theorem opsW_result (M : Valuation τ sig (Elt F)) :
    (StableHlo.after opsW M (Proc.devRef .tc main_v1) : S2048x4096.Idx → Elt F .bf16)
      = truncf .bf16 (concatenate S2048x4096 1 [⟨S2048x1024, M (Proc.devRef .tc main_arg3)⟩, ⟨S2048x1024, M (Proc.devRef .tc main_arg5)⟩, ⟨S2048x1024, M (Proc.devRef .tc main_arg7)⟩, ⟨S2048x1024, M (Proc.devRef .tc main_arg9)⟩]
          concatenates_S2048x1024_S2048x1024_S2048x1024_S2048x1024_S2048x4096_d1) bitsLt_bf16_f32 := by
  after_results
  rfl

/-- The bias pair's second result, from any contents: the four biases joined end to end, as one row. -/
theorem opsB_result (M : Valuation τ sig (Elt F)) :
    (StableHlo.after opsB M (Proc.devRef .tc main_v3) : S1x4096.Idx → Elt F .f32)
      = shapeCast S1x4096 (concatenate S4096 0 [⟨S1024, M (Proc.devRef .tc main_arg4)⟩, ⟨S1024, M (Proc.devRef .tc main_arg6)⟩, ⟨S1024, M (Proc.devRef .tc main_arg8)⟩, ⟨S1024, M (Proc.devRef .tc main_arg10)⟩]
          concatenates_S1024_S1024_S1024_S1024_S4096_d0) shapeCasts_S4096_S1x4096 := by
  after_results
  rfl

/-- THE FUSED WEIGHT as the region finds it. -/
theorem V_fusedW (c : Dev nD) :
    (V m c main_v1 : S2048x4096.Idx → Elt F .bf16)
      = truncf .bf16 (concatenate S2048x4096 1 [⟨S2048x1024, m ((c : Thread nD τ).loc main_arg3)⟩, ⟨S2048x1024, m ((c : Thread nD τ).loc main_arg5)⟩, ⟨S2048x1024, m ((c : Thread nD τ).loc main_arg7)⟩, ⟨S2048x1024, m ((c : Thread nD τ).loc main_arg9)⟩]
          concatenates_S2048x1024_S2048x1024_S2048x1024_S2048x1024_S2048x4096_d1) bitsLt_bf16_f32 := by
  rw [V_split, opsB_untouched _ main_v1 (by decide) (by decide), opsW_result]

/-- THE FUSED BIAS as the region finds it. -/
theorem V_fusedB (c : Dev nD) :
    (V m c main_v3 : S1x4096.Idx → Elt F .f32)
      = shapeCast S1x4096 (concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩]
          concatenates_S1024_S1024_S1024_S1024_S4096_d0) shapeCasts_S4096_S1x4096 := by
  rw [V_split, opsB_result, opsW_untouched _ main_arg4 (by decide) (by decide), opsW_untouched _ main_arg6 (by decide) (by decide),
    opsW_untouched _ main_arg8 (by decide) (by decide), opsW_untouched _ main_arg10 (by decide) (by decide)]

end Cert.KernelIdeal.Hand

end
-- ==== Proof.PayloadAt.lean ====
/-
  The kernel body's arithmetic, read at one position of its block.

  On a block of 256 batch rows the body forms the fused pre-activation

      z[p, q]  =  Σ_{k < 1024} x[p,k] · Wt[k,q]  +  Σ_{k < 1024} h[p,k] · Wb[k,q]  +  b[0,q]        (q < 4096)

  (two matrix products into a zero accumulator, added, plus the bias row repeated on every one of the 256 rows), cuts
  the 4096 fused columns into four runs of 1024 — forget, input, select, predict —, and stores

      tanh( c[p,j] · σ(z[p, j]) + σ(z[p, 1024 + j]) · tanh(z[p, 3072 + j]) ) · σ(z[p, 2048 + j]).

  Every operation here is read at an index: a matrix product into the zero accumulator is the plain sum over its one
  contracted axis; a cast of a shape to itself and a change of float format are the identity; the row broadcast reads
  row 0; a column slice from offset `o` reads column `o + j`; the remaining operations act position by position.
-/
import proofs.«148718_j56642028699866_2_alg».proof.Proof.Gen.KernelIdeal.Skeleton
import proofs.«148718_j56642028699866_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Lstm.KernelSide

open Idealize.ShloMosaic Idealize.ShloMosaic.ValueIdx Cert.KernelIdeal Cert.KernelIdeal.Gen

/-- The left operand of the body's matrix product, at an output position `i` and a contraction index `c`: its row is
    `i`'s row … -/
theorem lhs_row (i : S256x4096.Idx) (c : dot_S256x1024_S1024x4096_S256x4096_1_0_0_1_n_n.contr.Idx) :
    (dot_S256x1024_S1024x4096_S256x4096_1_0_0_1_n_n.lhsIdx i c 0).val = (i 0).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl
/-- … and its column is the contraction index. -/
theorem lhs_col (i : S256x4096.Idx) (c : dot_S256x1024_S1024x4096_S256x4096_1_0_0_1_n_n.contr.Idx) :
    (dot_S256x1024_S1024x4096_S256x4096_1_0_0_1_n_n.lhsIdx i c 1).val = (c ⟨0, by decide⟩).val :=
  dot_S256x1024_S1024x4096_S256x4096_1_0_0_1_n_n.lhsIdx_val_of_single rfl i c
/-- The right operand's row is the contraction index … -/
theorem rhs_row (i : S256x4096.Idx) (c : dot_S256x1024_S1024x4096_S256x4096_1_0_0_1_n_n.contr.Idx) :
    (dot_S256x1024_S1024x4096_S256x4096_1_0_0_1_n_n.rhsIdx i c 0).val = (c ⟨0, by decide⟩).val :=
  dot_S256x1024_S1024x4096_S256x4096_1_0_0_1_n_n.rhsIdx_val_of_single rfl i c
/-- … and its column is `i`'s column. -/
theorem rhs_col (i : S256x4096.Idx) (c : dot_S256x1024_S1024x4096_S256x4096_1_0_0_1_n_n.contr.Idx) :
    (dot_S256x1024_S1024x4096_S256x4096_1_0_0_1_n_n.rhsIdx i c 1).val = (i 1).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

/-- A 256×1024 by 1024×4096 matrix product into the zero accumulator, at position `(p, q)`: row `p` of the left
    operand against column `q` of the right one, summed over the 1024 contracted positions. -/
theorem matmul_at (a : FVec Ideal S256x1024 .bf16) (w : FVec Ideal S1024x4096 .bf16) (p : Fin 256) (q : Fin 4096) :
    matmul dot_S256x1024_S1024x4096_S256x4096_1_0_0_1_n_n none a w (constant (F := Ideal) S256x4096 .f32 0x00000000#32) (ix2 p q)
      = ∑ k : Fin 1024, a (ix2 p k) * w (ix2 k q) := by
  simp only [matmul]
  rw [Ideal.matmul_constant_zero_apply,
    ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p q)
      ((contrEquiv1 dot_S256x1024_S1024x4096_S256x4096_1_0_0_1_n_n 1024 rfl rfl).symm k) = ix2 p k :=
    funext fun a => Fin.ext (by
      match a with
      | ⟨0, _⟩ => exact lhs_row _ _
      | ⟨1, _⟩ => exact (lhs_col _ _).trans hk)
  have er : dot_S256x1024_S1024x4096_S256x4096_1_0_0_1_n_n.rhsIdx (ix2 p q)
      ((contrEquiv1 dot_S256x1024_S1024x4096_S256x4096_1_0_0_1_n_n 1024 rfl rfl).symm k) = ix2 k q :=
    funext fun a => Fin.ext (by
      match a with
      | ⟨0, _⟩ => exact (rhs_row _ _).trans hk
      | ⟨1, _⟩ => exact rhs_col _ _)
  rw [el, er]

/-- The fused pre-activation the body forms, at row `p` and fused column `q`: the two products, added, plus the bias
    row, which the broadcast repeats on every row. -/
theorem preact_at (v0 v2 : Vec Ideal S256x1024 .f32) (v4 v6 : Vec Ideal S1024x4096 .bf16) (v11 : Vec Ideal S1x4096 .f32)
    (p : Fin 256) (q : Fin 4096) :
    addf (addf
        (matmul dot_S256x1024_S1024x4096_S256x4096_1_0_0_1_n_n none (truncf .bf16 v0 bitsLt_bf16_f32 : FVec Ideal S256x1024 .bf16)
          (shapeCast S1024x4096 v4 shapeCasts_S1024x4096_S1024x4096 : FVec Ideal S1024x4096 .bf16)
          (constant (F := Ideal) S256x4096 .f32 0x00000000#32))
        (matmul dot_S256x1024_S1024x4096_S256x4096_1_0_0_1_n_n none (truncf .bf16 v2 bitsLt_bf16_f32 : FVec Ideal S256x1024 .bf16)
          (shapeCast S1024x4096 v6 shapeCasts_S1024x4096_S1024x4096 : FVec Ideal S1024x4096 .bf16)
          (constant (F := Ideal) S256x4096 .f32 0x00000000#32)))
      (broadcastTo S256x4096 (shapeCast S1x4096 v11 shapeCasts_S1x4096_S1x4096 : FVec Ideal S1x4096 .f32) broadcasts_S1x4096_S256x4096)
      (ix2 p q)
      = Cert.Lstm.lin v0 v2 v4 v6 v11 p q := by
  rw [shapeCast_self, shapeCast_self, shapeCast_self, addf_apply, addf_apply, matmul_at, matmul_at, broadcastTo_1b_ab_apply]
  rfl

/-- The run of 1024 fused columns from offset `o = g · 1024`, at `(p, j)`, is the pre-activation at gate `g`'s column `j`. -/
theorem gate_slice_at (v0 v2 : Vec Ideal S256x1024 .f32) (v4 v6 : Vec Ideal S1024x4096 .bf16) (v11 : Vec Ideal S1x4096 .f32)
    (o : Nat) (h : S256x4096.Slices ![0, o] S256x1024) (g : Fin 4) (p : Fin 256) (j : Fin 1024)
    (hk : (Cert.Lstm.col g j).val = o + j.val) :
    extractStridedSlice S256x1024 ![0, o] (addf (addf
        (matmul dot_S256x1024_S1024x4096_S256x4096_1_0_0_1_n_n none (truncf .bf16 v0 bitsLt_bf16_f32 : FVec Ideal S256x1024 .bf16)
          (shapeCast S1024x4096 v4 shapeCasts_S1024x4096_S1024x4096 : FVec Ideal S1024x4096 .bf16)
          (constant (F := Ideal) S256x4096 .f32 0x00000000#32))
        (matmul dot_S256x1024_S1024x4096_S256x4096_1_0_0_1_n_n none (truncf .bf16 v2 bitsLt_bf16_f32 : FVec Ideal S256x1024 .bf16)
          (shapeCast S1024x4096 v6 shapeCasts_S1024x4096_S1024x4096 : FVec Ideal S1024x4096 .bf16)
          (constant (F := Ideal) S256x4096 .f32 0x00000000#32)))
      (broadcastTo S256x4096 (shapeCast S1x4096 v11 shapeCasts_S1x4096_S1x4096 : FVec Ideal S1x4096 .f32) broadcasts_S1x4096_S256x4096))
      h (ix2 p j)
      = Cert.Lstm.lin v0 v2 v4 v6 v11 p (Cert.Lstm.col g j) :=
  (slice2_axis1_apply o _ h p j (Cert.Lstm.col g j) hk).trans (preact_at v0 v2 v4 v6 v11 p (Cert.Lstm.col g j))

/-- The hyperbolic tangent and the logistic function act position by position. -/
theorem tanh_at {s : Shape} {φ : FTy} (a : FVec Ideal s φ) (i : s.Idx) : tanh a i = Ideal.tanh (a i) := rfl
theorem logistic_at {s : Shape} {φ : FTy} (a : FVec Ideal s φ) (i : s.Idx) : logistic a i = Ideal.logistic (a i) := rfl

/-- The body's one stored value at position `(p, j)` of its block: the cell's output from the block's `c` there and the
    four fused pre-activations at the columns `j`, `1024 + j`, `2048 + j`, `3072 + j` (forget, input, select, predict). -/
theorem pay_apply (v0 v2 : Vec Ideal S256x1024 .f32) (v4 v6 : Vec Ideal S1024x4096 .bf16) (v11 : Vec Ideal S1x4096 .f32)
    (v23 : Vec Ideal S256x1024 .f32) (p : Fin 256) (j : Fin 1024) :
    Cert.KernelIdeal.Gen.k0_pay1 (F := Ideal) v0 v2 v4 v6 v11 v23 (ix2 p j)
      = Cert.Lstm.mix (v23 (ix2 p j)) (Cert.Lstm.lin v0 v2 v4 v6 v11 p (Cert.Lstm.col 0 j))
          (Cert.Lstm.lin v0 v2 v4 v6 v11 p (Cert.Lstm.col 1 j)) (Cert.Lstm.lin v0 v2 v4 v6 v11 p (Cert.Lstm.col 2 j))
          (Cert.Lstm.lin v0 v2 v4 v6 v11 p (Cert.Lstm.col 3 j)) := by
  unfold Cert.KernelIdeal.Gen.k0_pay1
  rw [mulf_apply, tanh_at, addf_apply, mulf_apply, mulf_apply, logistic_at, logistic_at, logistic_at, tanh_at,
    gate_slice_at v0 v2 v4 v6 v11 0 _ 0 p j rfl, gate_slice_at v0 v2 v4 v6 v11 1024 _ 1 p j rfl,
    gate_slice_at v0 v2 v4 v6 v11 2048 _ 2 p j rfl, gate_slice_at v0 v2 v4 v6 v11 3072 _ 3 p j rfl]
  rfl

end Cert.Lstm.KernelSide

end
-- ==== Proof.FusedAt.lean ====
/-
  The two arrays the host joins before the kernel runs, read at an index.

  The four gate weights, 2048 × 1024 each, are laid side by side along the columns into one 2048 × 4096 matrix, so
  fused column `g · 1024 + j` of row `k` is gate `g`'s entry `(k, j)`; narrowing the float format changes nothing on the
  extended reals. The four biases, 1024 each, are laid end to end into one vector of 4096 and viewed as a single row,
  so entry `(0, g · 1024 + j)` of that row is gate `g`'s bias at `j`.

  A concatenation read at an index is the piece whose span along the joined axis holds the index's coordinate there,
  read at that coordinate less the extents of the pieces before it; with four pieces of extent 1024 each, the piece
  that holds `g · 1024 + j` is the `g`-th and the offset inside it is `j`. The four gates are four cases of one
  computation.
-/
import proofs.«148718_j56642028699866_2_alg».proof.Proof.Gen.KernelIdeal
import proofs.«148718_j56642028699866_2_alg».proof.Proof.Spec
import Idealize.ShloMosaic.Lib.ValueIdx
import Idealize.ShloMosaic.Lib.Pipeline.Value
import Idealize.ShloMosaic.Lib.ValueLayout

noncomputable section

namespace Cert.Lstm.KernelSide

open Idealize.ShloMosaic Idealize.ShloMosaic.ValueIdx Cert.KernelIdeal

/-- A join of four arrays of 1024 columns each, read at row `k` and column `q`: if `q` is `pre + j` with `pre` the total
    width of the first `n` pieces, it is piece `n` at `(k, j)`. -/
theorem concatW_piece (W0 W1 W2 W3 : FVec Ideal S2048x1024 .f32)
    (hc : Shape.Concatenates [S2048x1024, S2048x1024, S2048x1024, S2048x1024] S2048x4096 1)
    (k : Fin 2048) (q : Fin 4096) (j : Fin 1024) (n : Nat)
    (hlen : n < ([⟨S2048x1024, W0⟩, ⟨S2048x1024, W1⟩, ⟨S2048x1024, W2⟩, ⟨S2048x1024, W3⟩] : List ((s : Shape) × (s.Idx → EReal))).length)
    (W : FVec Ideal S2048x1024 .f32)
    (hget : ([⟨S2048x1024, W0⟩, ⟨S2048x1024, W1⟩, ⟨S2048x1024, W2⟩, ⟨S2048x1024, W3⟩] : List ((s : Shape) × (s.Idx → EReal)))[n]'hlen
      = ⟨S2048x1024, W⟩)
    (pre : Nat)
    (hpre : (((([⟨S2048x1024, W0⟩, ⟨S2048x1024, W1⟩, ⟨S2048x1024, W2⟩, ⟨S2048x1024, W3⟩] : List ((s : Shape) × (s.Idx → EReal))).take n).map
        (·.1)).map fun s => if h : s.rank = S2048x4096.rank then s.size ((1 : Fin S2048x4096.rank).cast h.symm) else 0).sum = pre)
    (ha : pre + j.val = q.val) :
    concatenate S2048x4096 1 [⟨S2048x1024, W0⟩, ⟨S2048x1024, W1⟩, ⟨S2048x1024, W2⟩, ⟨S2048x1024, W3⟩] hc (ix2 k q) = W (ix2 k j) := by
  have off : ∀ b : Fin S2048x1024.rank, b.cast (rfl : S2048x1024.rank = S2048x4096.rank) ≠ 1 →
      ((ix2 k j : S2048x1024.Idx) b).val = ((ix2 k q : S2048x4096.Idx) (b.cast rfl)).val := fun b hb => by
    match b with
    | ⟨0, _⟩ => rfl
    | ⟨1, _⟩ => exact (hb (Fin.ext rfl)).elim
  exact concatenate_apply_piece (α := EReal) (t := S2048x4096) (1 : Fin S2048x4096.rank)
      [⟨S2048x1024, W0⟩, ⟨S2048x1024, W1⟩, ⟨S2048x1024, W2⟩, ⟨S2048x1024, W3⟩] hc (ix2 k q)
      n hlen S2048x1024 W hget rfl pre hpre (ix2 k j) off ha

/-- The four weights joined along the columns, at row `k` and gate `g`'s column `j`: gate `g`'s weight at `(k, j)`. -/
theorem concatW_apply (W0 W1 W2 W3 : FVec Ideal S2048x1024 .f32)
    (hc : Shape.Concatenates [S2048x1024, S2048x1024, S2048x1024, S2048x1024] S2048x4096 1)
    (k : Fin 2048) (g : Fin 4) (j : Fin 1024) :
    concatenate S2048x4096 1 [⟨S2048x1024, W0⟩, ⟨S2048x1024, W1⟩, ⟨S2048x1024, W2⟩, ⟨S2048x1024, W3⟩] hc
        (ix2 k (Cert.Lstm.col g j)) = (![W0, W1, W2, W3] g) (ix2 k j) := by
  match g with
  | ⟨0, _⟩ => exact concatW_piece W0 W1 W2 W3 hc k _ j 0 (by show (0 : Nat) < 4; omega) W0 rfl 0 rfl rfl
  | ⟨1, _⟩ => exact concatW_piece W0 W1 W2 W3 hc k _ j 1 (by show (1 : Nat) < 4; omega) W1 rfl 1024 rfl rfl
  | ⟨2, _⟩ => exact concatW_piece W0 W1 W2 W3 hc k _ j 2 (by show (2 : Nat) < 4; omega) W2 rfl 2048 rfl rfl
  | ⟨3, _⟩ => exact concatW_piece W0 W1 W2 W3 hc k _ j 3 (by show (3 : Nat) < 4; omega) W3 rfl 3072 rfl rfl

/-- The fused weight as the kernel receives it — the join above in the narrower float format, which changes nothing on the
    extended reals — at the same index. -/
theorem fusedW_apply (W0 W1 W2 W3 : FVec Ideal S2048x1024 .f32)
    (hc : Shape.Concatenates [S2048x1024, S2048x1024, S2048x1024, S2048x1024] S2048x4096 1)
    (hb : FTy.bits .bf16 < FTy.bits .f32) (k : Fin 2048) (g : Fin 4) (j : Fin 1024) :
    (truncf .bf16 (concatenate S2048x4096 1 [⟨S2048x1024, W0⟩, ⟨S2048x1024, W1⟩, ⟨S2048x1024, W2⟩, ⟨S2048x1024, W3⟩] hc) hb
        : FVec Ideal S2048x4096 .bf16) (ix2 k (Cert.Lstm.col g j)) = (![W0, W1, W2, W3] g) (ix2 k j) :=
  concatW_apply W0 W1 W2 W3 hc k g j

/-- A join of four vectors of 1024 entries each, read at position `q`: if `q` is `pre + j` with `pre` the total length of
    the first `n` pieces, it is piece `n` at `j`. -/
theorem concatB_piece (b0 b1 b2 b3 : FVec Ideal S1024 .f32)
    (hc : Shape.Concatenates [S1024, S1024, S1024, S1024] S4096 0) (q : Fin 4096) (j : Fin 1024) (n : Nat)
    (hlen : n < ([⟨S1024, b0⟩, ⟨S1024, b1⟩, ⟨S1024, b2⟩, ⟨S1024, b3⟩] : List ((s : Shape) × (s.Idx → EReal))).length)
    (b : FVec Ideal S1024 .f32)
    (hget : ([⟨S1024, b0⟩, ⟨S1024, b1⟩, ⟨S1024, b2⟩, ⟨S1024, b3⟩] : List ((s : Shape) × (s.Idx → EReal)))[n]'hlen = ⟨S1024, b⟩)
    (pre : Nat)
    (hpre : (((([⟨S1024, b0⟩, ⟨S1024, b1⟩, ⟨S1024, b2⟩, ⟨S1024, b3⟩] : List ((s : Shape) × (s.Idx → EReal))).take n).map
        (·.1)).map fun s => if h : s.rank = S4096.rank then s.size ((0 : Fin S4096.rank).cast h.symm) else 0).sum = pre)
    (ha : pre + j.val = q.val) :
    concatenate S4096 0 [⟨S1024, b0⟩, ⟨S1024, b1⟩, ⟨S1024, b2⟩, ⟨S1024, b3⟩] hc (ix1 q) = b (ix1 j) := by
  have off : ∀ a : Fin S1024.rank, a.cast (rfl : S1024.rank = S4096.rank) ≠ 0 →
      ((ix1 j : S1024.Idx) a).val = ((ix1 q : S4096.Idx) (a.cast rfl)).val := fun a hne => by
    match a with
    | ⟨0, _⟩ => exact (hne (Fin.ext rfl)).elim
  exact concatenate_apply_piece (α := EReal) (t := S4096) (0 : Fin S4096.rank)
      [⟨S1024, b0⟩, ⟨S1024, b1⟩, ⟨S1024, b2⟩, ⟨S1024, b3⟩] hc (ix1 q) n hlen S1024 b hget rfl pre hpre (ix1 j) off ha

/-- The four biases joined end to end, at gate `g`'s position `j`: gate `g`'s bias at `j`. -/
theorem concatB_apply (b0 b1 b2 b3 : FVec Ideal S1024 .f32)
    (hc : Shape.Concatenates [S1024, S1024, S1024, S1024] S4096 0) (g : Fin 4) (j : Fin 1024) :
    concatenate S4096 0 [⟨S1024, b0⟩, ⟨S1024, b1⟩, ⟨S1024, b2⟩, ⟨S1024, b3⟩] hc (ix1 (Cert.Lstm.col g j))
      = (![b0, b1, b2, b3] g) (ix1 j) := by
  match g with
  | ⟨0, _⟩ => exact concatB_piece b0 b1 b2 b3 hc _ j 0 (by show (0 : Nat) < 4; omega) b0 rfl 0 rfl rfl
  | ⟨1, _⟩ => exact concatB_piece b0 b1 b2 b3 hc _ j 1 (by show (1 : Nat) < 4; omega) b1 rfl 1024 rfl rfl
  | ⟨2, _⟩ => exact concatB_piece b0 b1 b2 b3 hc _ j 2 (by show (2 : Nat) < 4; omega) b2 rfl 2048 rfl rfl
  | ⟨3, _⟩ => exact concatB_piece b0 b1 b2 b3 hc _ j 3 (by show (3 : Nat) < 4; omega) b3 rfl 3072 rfl rfl

/-- The fused bias as the kernel receives it — the join above viewed as one row of 4096 — at `(0, g · 1024 + j)`. -/
theorem fusedB_apply (b0 b1 b2 b3 : FVec Ideal S1024 .f32)
    (hc : Shape.Concatenates [S1024, S1024, S1024, S1024] S4096 0) (hs : S4096.ShapeCasts S1x4096) (g : Fin 4) (j : Fin 1024) :
    (shapeCast S1x4096 (concatenate S4096 0 [⟨S1024, b0⟩, ⟨S1024, b1⟩, ⟨S1024, b2⟩, ⟨S1024, b3⟩] hc) hs
        : FVec Ideal S1x4096 .f32) (ix2 (0 : Fin 1) (Cert.Lstm.col g j)) = (![b0, b1, b2, b3] g) (ix1 j) :=
  (shapeCast_a_1a_apply _ hs 0 (Cert.Lstm.col g j)).trans (concatB_apply b0 b1 b2 b3 hc g j)

end Cert.Lstm.KernelSide

end
-- ==== Proof.KernelValue.lean ====
/-
  The kernel's result array is the cell of its argument arrays. At each grid point the body's stored value, read at a
  position `(p, j)` of its block, is the cell's output from the block's `c` there and four fused pre-activations of the
  loaded blocks; each of those is one gate's pre-activation of the ARGUMENT arrays at batch row `256·t + p` — the block
  rows are those batch rows, gate `g`'s fused column `g·1024 + j` is column `j` of the gate's own weight and bias, and the
  upper and lower halves of the fused weight are the weight's rows that meet `x` and `h`. So what point `t` writes back is
  block `t` of one whole-array function, the 16 blocks cover the result array, and the array ends at that function.
-/
import proofs.«148718_j56642028699866_2_alg».proof.Proof.RunIdeal
import proofs.«148718_j56642028699866_2_alg».proof.Proof.BlockReads
import proofs.«148718_j56642028699866_2_alg».proof.Proof.HostArrays
import proofs.«148718_j56642028699866_2_alg».proof.Proof.PayloadAt
import proofs.«148718_j56642028699866_2_alg».proof.Proof.FusedAt
import proofs.«148718_j56642028699866_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Lstm

variable (m : (ℓ : Loc nD τ sig) → Buf (Elt Ideal) ℓ) (ρ : Dev nD → PrngReg)

/-- The cell of the eleven argument arrays as launched on core `c`. -/
def cellOf (c : Dev nD) : S4096x1024.Idx → EReal :=
  Cert.Lstm.cell (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- The four weights and the four biases as launched, by gate (forget, input, select, predict). -/
abbrev wOf (c : Dev nD) : Fin 4 → S2048x1024.Idx → EReal :=
  ![m ((c : Thread nD τ).loc main_arg3), m ((c : Thread nD τ).loc main_arg5), m ((c : Thread nD τ).loc main_arg7), m ((c : Thread nD τ).loc main_arg9)]
abbrev bOf (c : Dev nD) : Fin 4 → S1024.Idx → EReal :=
  ![m ((c : Thread nD τ).loc main_arg4), m ((c : Thread nD τ).loc main_arg6), m ((c : Thread nD τ).loc main_arg8), m ((c : Thread nD τ).loc main_arg10)]

/-- ONE GATE ON ONE BLOCK: the fused pre-activation of the loaded blocks at row `p` and gate `g`'s fused column `j` is that
    gate's pre-activation of the argument arrays at batch row `256·t + p` and column `j`: the block rows are those batch
    rows, the fused column is the gate's own column of its own weight and bias, and the two halves of the fused weight
    are the weight's upper and lower rows. -/
theorem lin_block (c : Dev nD) (t : Fin cfg0.N) (p : Fin 256) (j : Fin 1024) (g : Fin 4) :
    Cert.Lstm.lin (View.ld (iblk m c 0 t) rRows) (View.ld (iblk m c 1 t) rRows) (View.ld (iblk m c 3 t) rTop) (View.ld (iblk m c 3 t) rBot)
        (View.ld (iblk m c 4 t) rBias) p (col g j)
      = Cert.Lstm.gate (m ((c : Thread nD τ).loc main_arg0)) (m ((c : Thread nD τ).loc main_arg1)) (wOf m c g) (bOf m c g) (rowAt t p) j := by
  unfold Cert.Lstm.lin Cert.Lstm.gate
  have hx : ∀ k : Fin 1024, View.ld (iblk m c 0 t) rRows (ix2 p k) = m ((c : Thread nD τ).loc main_arg0) (ix2 (rowAt t p) k) := fun k =>
    (ld_x m c t p k).trans (congrFun (V_untouched m c main_arg0 (by decide) (by decide) (by decide) (by decide)) _)
  have hh : ∀ k : Fin 1024, View.ld (iblk m c 1 t) rRows (ix2 p k) = m ((c : Thread nD τ).loc main_arg1) (ix2 (rowAt t p) k) := fun k =>
    (ld_h m c t p k).trans (congrFun (V_untouched m c main_arg1 (by decide) (by decide) (by decide) (by decide)) _)
  have hwt : ∀ k : Fin 1024, View.ld (iblk m c 3 t) rTop (ix2 k (col g j)) = wOf m c g (ix2 (top k) j) := fun k =>
    (ld_wtop m c t k (col g j)).trans ((congrFun (V_fusedW m c) _).trans (Cert.Lstm.KernelSide.fusedW_apply _ _ _ _ _ _ (top k) g j))
  have hwb : ∀ k : Fin 1024, View.ld (iblk m c 3 t) rBot (ix2 k (col g j)) = wOf m c g (ix2 (bot k) j) := fun k =>
    (ld_wbot m c t k (col g j)).trans ((congrFun (V_fusedW m c) _).trans (Cert.Lstm.KernelSide.fusedW_apply _ _ _ _ _ _ (bot k) g j))
  have hb : View.ld (iblk m c 4 t) rBias (ix2 (0 : Fin 1) (col g j)) = bOf m c g (ix1 j) :=
    (ld_bias m c t (col g j)).trans ((congrFun (V_fusedB m c) _).trans (Cert.Lstm.KernelSide.fusedB_apply _ _ _ _ _ _ g j))
  simp only [hx, hh, hwt, hwb, hb]

theorem hz : (![0, 0] : Fin 2 → Nat) = fun _ => 0 := funext fun a => by fin_cases a <;> rfl

/-- WHAT POINT `t` WRITES BACK is block `t` of the cell of the argument arrays. -/
theorem flushed_eq (c : Dev nD) (t : Fin cfg0.N) :
    (dats m 0 c).flushed 5 t = ((cfg0.win 5).blk t).view.read (Elt Ideal) (cellOf m c) := by
  show (cfg0.win 5).cut (grid0.coords t) ((dats m 0 c).after 5 t) = _
  rw [after0_5]
  unfold outBlock
  rw [View.canon_unit_zero hz]
  funext y
  obtain ⟨p, j, rfl⟩ : ∃ (p : Fin 256) (j : Fin 1024), y = ix2 p j := ⟨y 0, y 1, eq_ix2 y⟩
  show k0_pay1 (F := Ideal) (View.ld (iblk m c 0 t) rRows) (View.ld (iblk m c 1 t) rRows) (View.ld (iblk m c 3 t) rTop) (View.ld (iblk m c 3 t) rBot)
      (View.ld (iblk m c 4 t) rBias) (View.ld (iblk m c 2 t) rRows) (ix2 p j) = cellOf m c (((cfg0.win 5).blk t).view.emb (ix2 p j))
  refine (Cert.Lstm.KernelSide.pay_apply (View.ld (iblk m c 0 t) rRows) (View.ld (iblk m c 1 t) rRows) (View.ld (iblk m c 3 t) rTop)
    (View.ld (iblk m c 3 t) rBot) (View.ld (iblk m c 4 t) rBias) (View.ld (iblk m c 2 t) rRows) p j).trans ?_
  rw [emb_out t p j, lin_block m c t p j 0, lin_block m c t p j 1, lin_block m c t p j 2, lin_block m c t p j 3,
    (ld_c m c t p j).trans (congrFun (V_untouched m c main_arg2 (by decide) (by decide) (by decide) (by decide)) _)]
  rfl

/-- THE RESULT ARRAY after the run is the cell of the argument arrays: every index is in some point's block. -/
theorem final_out (c : Dev nD) : (dats m 0 c).arrAt 5 cfg0.N = cellOf m c :=
  (dats m 0 c).arrAt_eq_of_cover 5 (cellOf m c) (fun t _ => flushed_eq m c t) cover_out

/-- The run, read: the result array at the cell of the argument arrays, the argument arrays unchanged. -/
theorem run_value : θ_run defs (onTc (τ := τ) (main (F := Ideal))) ⟨m, fun _ => 0, ρ⟩ (fun r => ∀ c : Dev nD,
      r.2.mem ((c.tc : Thread nD τ).loc main_v4) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (final_out m c), (h c).2⟩) (run_named m ρ)

end Cert.KernelIdeal.Hand

end
-- ==== Proof.lean ====
/-
  One step of a long short-term memory cell, as a fused kernel, against its plain reference, over the extended reals.

  Both programs take `x, h, c` (4096 × 1024), four gate weights (2048 × 1024: 1024 rows for `x` above 1024 rows for `h`)
  and four gate biases (1024), and return

      tanh( c · σ(f) + σ(i) · tanh(p) ) · σ(s),      f, i, s, p = [x, h] · W_gate + b_gate,      σ z = 1 / (1 + e^(−z)).

  THE REFERENCE joins `x` and `h` into one row of length 2048 and contracts it with each gate's weight; it spells σ out as
  `1 / (1 + exp(−z))`. THE KERNEL joins the four weights side by side into one 2048 × 4096 matrix (narrowed to the matrix
  unit's input format, which over the extended reals changes nothing) and the four biases into one row of 4096; then, 256
  batch rows at a time, it multiplies the `x` rows with the upper 1024 rows of the fused matrix and the `h` rows with the
  lower 1024, adds the two products and the fused bias, cuts the 4096 columns back into the four gates, and applies the
  logistic function (as one operation) and the hyperbolic tangent.

  The two agree because (1) a sum over the joined row of length 2048 is the sum of its two halves — a rearrangement of a
  finite sum, valid for every extended real, so the inputs' finiteness is never used; (2) column `g·1024 + j` of the fused
  matrix and of the fused bias is column `j` of gate `g`'s own; (3) the logistic operation IS `1 / (1 + exp(−z))` on the
  extended reals, and the two hyperbolic tangents are one function; (4) the kernel's 16 blocks of 256 rows tile the batch.
  Both sides are shown equal to ONE function of the eleven argument arrays (`Cert.Lstm.cell`).

  The frames: each program runs to the end, faults nowhere and leaves its arguments unchanged. For the kernel, at the
  word level and idealized, the four host operations write only their own results and the pipelined region reads its
  inputs and writes only the result; for the reference it is its run with the result dropped. The idealization rewrote
  no operation, so there is nothing to preserve.
-/
import proofs.«148718_j56642028699866_2_alg».proof.Defs
import proofs.«148718_j56642028699866_2_alg».proof.Proof.Gen.Kernel
import proofs.«148718_j56642028699866_2_alg».proof.Proof.Gen.KernelIdeal
import proofs.«148718_j56642028699866_2_alg».proof.Proof.Gen.ReferenceIdeal
import proofs.«148718_j56642028699866_2_alg».proof.Proof.Gen.Pre_finite_inputs
import proofs.«148718_j56642028699866_2_alg».proof.Proof.Gen.ReferenceIdeal.Run
import proofs.«148718_j56642028699866_2_alg».proof.Proof.Gen.ReferenceIdeal.Read
import proofs.«148718_j56642028699866_2_alg».proof.Proof.RunBits
import proofs.«148718_j56642028699866_2_alg».proof.Proof.RefCell
import proofs.«148718_j56642028699866_2_alg».proof.Proof.KernelValue

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Hand.frame m ρ

/-- The idealized kernel runs and leaves its arguments unchanged. -/
theorem frame_kernelIdeal : Cert.frame_KernelIdeal := fun m ρ _ => Cert.KernelIdeal.Hand.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end with the cell of the argument arrays in their result: the kernel block by
    block (each block the cell of its own 256 batch rows, against the fused weight and bias), the reference in one piece
    (the four contractions over the joined row of length 2048, split into their halves). -/
theorem algebraic : Cert.algebraic_KernelIdeal_ReferenceIdeal := by
  intro m ρ m' ρ' _ hagree
  refine ⟨fun c => Cert.KernelIdeal.Hand.cellOf m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.Lstm.RefSide.reference_eq_cell]
  obtain ⟨h0, h1, h2, h3, h4, h5, h6, h7, h8, h9, h10⟩ := hagree c
  rw [h0, h1, h2, h3, h4, h5, h6, h7, h8, h9, h10]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
